-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1000x2048 : Shape := ⟨2, ![1000, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_

variable [Facts]

def fn {F : FTy → Type} [FloatOps F] (main_arg0 : FVec F S8192x2048 .f32) (main_arg1 : FVec F S1000x2048 .f32) (main_arg2 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  main_v8
-- ==== Kernel.lean ====
abbrev S8192x2048 : Shape := ⟨2, ![8192, 2048]⟩
abbrev S1000x2048 : Shape := ⟨2, ![1000, 2048]⟩
abbrev S8192 : Shape := ⟨1, ![8192]⟩
abbrev S2048x1000 : Shape := ⟨2, ![2048, 1000]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S8192x1 : Shape := ⟨2, ![8192, 1]⟩
abbrev S1x2 : Shape := ⟨2, ![1, 2]⟩
abbrev S1024x2048 : Shape := ⟨2, ![1024, 2048]⟩
abbrev S1024x1 : Shape := ⟨2, ![1024, 1]⟩
abbrev S1024 : Shape := ⟨1, ![1024]⟩
abbrev S1024x1000 : Shape := ⟨2, ![1024, 1000]⟩
abbrev S1 : Shape := ⟨1, ![1]⟩
abbrev S1x1 : Shape := ⟨2, ![1, 1]⟩

abbrev nBuf : Space → Nat
  | .hbm => 23
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1000x2048, .f32⟩
  | .hbm, ⟨2, _⟩ => ⟨S8192, .i32⟩
  | .hbm, ⟨3, _⟩ => ⟨S1000x2048, .bf16⟩
  | .hbm, ⟨4, _⟩ => ⟨S2048x1000, .bf16⟩
  | .hbm, ⟨5, _⟩ => ⟨S1000x2048, .f32⟩
  | .hbm, ⟨6, _⟩ => ⟨S_, .f32⟩
  | .hbm, ⟨7, _⟩ => ⟨S1000, .f32⟩
  | .hbm, ⟨8, _⟩ => ⟨S1000x1, .f32⟩
  | .hbm, ⟨9, _⟩ => ⟨S1x1000, .f32⟩
  | .hbm, ⟨10, _⟩ => ⟨S8192x1, .i32⟩
  | .hbm, ⟨11, _⟩ => ⟨S1x2, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x1000, .bf16⟩
  | .local _ .vmem, ⟨3, _⟩ => ⟨S1x1000, .f32⟩
  | .local _ .vmem, ⟨4, _⟩ => ⟨S1024x1, .i32⟩
  | .local _ .vmem, ⟨5, _⟩ => ⟨S1024x1, .i32⟩
  | .local _ .vmem, ⟨6, _⟩ => ⟨S1x2, .f32⟩
  | .local _ .vmem, ⟨7, _⟩ => ⟨S1x2, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v50 : BitVec 1 := Scalar.cmpi .eq arg0 c7_i32
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bitsLt_bf16_f32 : FTy.bits .bf16 < FTy.bits .f32
  transposes_S1000x2048_S2048x1000_1_0 : S1000x2048.Transposes [1, 0] S2048x1000
  reducesTo_S1000x2048_S1000_d1 : S1000x2048.ReducesTo [1] S1000
  h_S_ : 0 < S_.numel
  bcast_S1000_S1000x1_0 : S1000.BroadcastsInDim S1000x1 (![0] : Fin 1 → Fin S1000x1.rank)
  transposes_S1000x1_S1x1000_1_0 : S1000x1.Transposes [1, 0] S1x1000
  bcast_S8192_S8192x1_0 : S8192.BroadcastsInDim S8192x1 (![0] : Fin 1 → Fin S8192x1.rank)
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1024x1_S1024x1000 : S1024x1.Broadcasts S1024x1000
  broadcasts_S1x1000_S1024x1000 : S1x1000.Broadcasts S1024x1000
  iota_S1024x1000_d1_w32 : S1024x1000.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1000_S1024 : S1024x1000.Reduces [1] S1024
  reduces_S1024x1_S1 : S1024x1.Reduces [0] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  dot_S1024x2048_S2048x1000_S1024x1000_1_0_0_1_n_n_wf : DotDims.WF S1024x2048 S2048x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1000.size a ≤ S2048x1000.size a
  hwx0_1 : ∀ i : grid0.Coords, EltTy.bits .bf16 = 32 ∨ (Rect.block (s := S2048x1000) S2048x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)

variable [Facts₀]

def dot_S1024x2048_S2048x1000_S1024x1000_1_0_0_1_n_n : DotDims S1024x2048 S2048x1000 S1024x1000 where
  lhsContracting := [1]
  rhsContracting := [0]
  lhsNonContracting := [0]
  rhsNonContracting := [1]
  lhsBatch := []
  rhsBatch := []
  wf := dot_S1024x2048_S2048x1000_S1024x1000_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S1000x2048 : Shape := ⟨2, ![1000, 2048]⟩
abbrev S8192 : Shape := ⟨1, ![8192]⟩
abbrev S_ : Shape := ⟨0, ![]⟩
abbrev S8192x1 : Shape := ⟨2, ![8192, 1]⟩
abbrev S1000 : Shape := ⟨1, ![1000]⟩
abbrev S1x1000 : Shape := ⟨2, ![1, 1000]⟩
abbrev S8192x1000 : Shape := ⟨2, ![8192, 1000]⟩
abbrev S2048x1000 : Shape := ⟨2, ![2048, 1000]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1000x2048, .f32⟩
  | .hbm, ⟨2, _⟩ => ⟨S8192, .i32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1000x2048, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S8192x1000, .f32⟩
  | .hbm, ⟨12, _⟩ => ⟨S8192x1000, .f32⟩
  | .hbm, ⟨13, _⟩ => ⟨S8192x1000, .f32⟩
  | .hbm, ⟨14, _⟩ => ⟨S2048x1000, .f32⟩
  | .hbm, ⟨15, _⟩ => ⟨S8192x1000, .f32⟩
  | .hbm, ⟨16, _⟩ => ⟨S_, .f32⟩
  | .hbm, ⟨17, _⟩ => ⟨S8192x1000, .f32⟩
  | .hbm, ⟨18, _⟩ => ⟨S8192x1000, .f32⟩
  | .hbm, ⟨19, _⟩ => ⟨S8192x1000, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x1000, .f32⟩
  | .hbm, ⟨24, _⟩ => ⟨S8192x1000, .f32⟩
  | .hbm, ⟨25, _⟩ => ⟨S_, .f32⟩
  | .hbm, ⟨26, _⟩ => ⟨S8192x1000, .f32⟩
  | .hbm, ⟨27, _⟩ => ⟨S8192x1000, .f32⟩
  | .hbm, ⟨28, _⟩ => ⟨S8192x1, .i32⟩
  | .hbm, ⟨29, _⟩ => ⟨S1000, .i32⟩
  | .hbm, ⟨30, _⟩ => ⟨S1x1000, .i32⟩
  | .hbm, ⟨31, _⟩ => ⟨S8192x1000, .i32⟩
  | .hbm, ⟨32, _⟩ => ⟨S8192x1000, .i32⟩
  | .hbm, ⟨33, _⟩ => ⟨S8192x1000, .i1⟩
  | .hbm, ⟨34, _⟩ => ⟨S_, .f32⟩
  | .hbm, ⟨35, _⟩ => ⟨S_, .f32⟩
  | .hbm, ⟨36, _⟩ => ⟨S8192x1000, .f32⟩
  | .hbm, ⟨37, _⟩ => ⟨S8192x1000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x1000, .f32⟩
  | .hbm, ⟨45, _⟩ => ⟨S8192x1000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_cst_10 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S1000x2048_S1000_d1 : S1000x2048.ReducesTo [1] S1000
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  transposes_S1000x2048_S2048x1000_1_0 : S1000x2048.Transposes [1, 0] S2048x1000
  bcast_S_S8192x1000 : S_.BroadcastsInDim S8192x1000 (![] : Fin 0 → Fin S8192x1000.rank)
  reducesTo_S8192x1000_S_d0_1 : S8192x1000.ReducesTo [0, 1] S_
  dot_S8192x2048_S2048x1000_S8192x1000_1_0_0_1_n_n_wf : DotDims.WF S8192x2048 S2048x1000 S8192x1000 [1] [0] [0] [1] [] []

variable [Facts₀]

def dot_S8192x2048_S2048x1000_S8192x1000_1_0_0_1_n_n : DotDims S8192x2048 S2048x1000 S8192x1000 where
  lhsContracting := [1]
  rhsContracting := [0]
  lhsNonContracting := [0]
  rhsNonContracting := [1]
  lhsBatch := []
  rhsBatch := []
  wf := dot_S8192x2048_S2048x1000_S8192x1000_1_0_0_1_n_n_wf

class Facts : Prop extends Facts₀ where

variable [Facts]
-- ==== Proof.Spec.lean ====
/-
  The centre loss as ONE function of the three argument arrays, over the extended reals.

  For a batch row b and a class c the squared distance is  ‖x_b‖² + ‖c_c‖² − 2·⟨x_b, c_c⟩, clamped between the two
  bounds; a row's OWN class is the one its label names.  The loss is the sum of the own-class distances divided by the
  batch size, minus a small weight times the sum of all the other distances divided by their number.  Every float
  literal is kept as the binary word both programs carry; nothing here evaluates one.
-/
import Idealize.ShloMosaic.PureOps.Ideal
import Idealize.ShloMosaic.PureOps.Ideal.Laws
import Idealize.ShloMosaic.Lib.ValueIdx

noncomputable section

open scoped BigOperators

namespace CenterLoss

open Idealize.ShloMosaic Idealize.ShloMosaic.ValueIdx

/-- The batch [8192, 2048], the class centres [1000, 2048], the labels [8192]. -/
abbrev SX : Shape := ⟨2, ![8192, 2048]⟩
abbrev SC : Shape := ⟨2, ![1000, 2048]⟩
abbrev SL : Shape := ⟨1, ![8192]⟩

/-- Row r of the t-th block of 1024 batch rows. -/
def row (t : Fin 8) (r : Fin 1024) : Fin 8192 := ⟨t.val * 1024 + r.val, by have := t.isLt; have := r.isLt; omega⟩

theorem row_val (t : Fin 8) (r : Fin 1024) : (row t r).val = t.val * 1024 + r.val := rfl

section
variable (X : SX.Idx → EReal) (Cn : SC.Idx → EReal) (L : SL.Idx → BitVec 32)

/-- ‖x_b‖² -/
def xsq (b : Fin 8192) : EReal := ∑ k : Fin 2048, X (ix2 b k) * X (ix2 b k)
/-- ‖c_c‖² -/
def csq (c : Fin 1000) : EReal := ∑ k : Fin 2048, Cn (ix2 c k) * Cn (ix2 c k)
/-- ⟨x_b, c_c⟩ -/
def dot (b : Fin 8192) (c : Fin 1000) : EReal := ∑ k : Fin 2048, X (ix2 b k) * Cn (ix2 c k)

/-- The clamped squared distance of batch row b to centre c. -/
def dist (b : Fin 8192) (c : Fin 1000) : EReal :=
  min (Ideal.ofBits .f32 0x5368D4A5#32)
    (max (Ideal.ofBits .f32 0x2B8CBCCC#32)
      ((xsq X b + csq Cn c) - Ideal.ofBits .f32 0x40000000#32 * dot X Cn b c))

/-- Whether c is row b's own class: the label word equals the class number as a word. -/
def hit (b : Fin 8192) (c : Fin 1000) : BitVec 1 := IntOp.cmpi .eq (L (ix1 b)) (BitVec.ofNat 32 c.val)

/-- The distance where c is b's own class, the zero word elsewhere. -/
def own (b : Fin 8192) (c : Fin 1000) : EReal :=
  Scalar.select (hit L b c) (dist X Cn b c) (Ideal.ofBits .f32 0x00000000#32)
/-- The distance where c is NOT b's own class, the zero word where it is. -/
def other (b : Fin 8192) (c : Fin 1000) : EReal :=
  Scalar.select (hit L b c) (Ideal.ofBits .f32 0x00000000#32) (dist X Cn b c)

/-- The two totals over all rows and classes. -/
def ownTotal : EReal := ∑ b : Fin 8192, ∑ c : Fin 1000, own X Cn L b c
def otherTotal : EReal := ∑ b : Fin 8192, ∑ c : Fin 1000, other X Cn L b c

end

/-- From the two totals to the loss: the first over the batch size, minus the weight times the second over the
    number of other (row, class) pairs. -/
def loss (s₁ s₂ : EReal) : EReal :=
  Ideal.div s₁ (Ideal.ofBits .f32 0x46000000#32)
    - Ideal.ofBits .f32 0x3A83126F#32 * Ideal.div s₂ (Ideal.ofBits .f32 0x4AF9C000#32)

/-- The centre loss of the three arrays. -/
def result (X : SX.Idx → EReal) (Cn : SC.Idx → EReal) (L : SL.Idx → BitVec 32) : EReal :=
  loss (ownTotal X Cn L) (otherTotal X Cn L)

end CenterLoss

end
-- ==== Proof.RefValue.lean ====
/-
  The reference program's result, read at the ideal instance, is the centre loss of its three arguments.

  The reference is read one operation at a time.  At a (row, class) index every layout operation (broadcast,
  transpose) only moves an index, so the row sums of squares, the product with the transposed centres and the
  comparison of the label with the class number are read at explicit two-coordinate indices; over the extended reals
  each float operation is the exact one, and the zero initial value of a sum is dropped with `zero_add`.  The two
  full reductions are sums over every (row, class) index, hence double sums over rows and classes.
-/
import proofs.«165473_j89232240542211_1_alg».proof.Proof.Gen.ReferenceIdeal.Read
import proofs.«165473_j89232240542211_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx CenterLoss

variable (X : (⟨S8192x2048, .f32⟩ : BufTy).Contents (Elt Ideal)) (Cn : (⟨S1000x2048, .f32⟩ : BufTy).Contents (Elt Ideal))
  (L : (⟨S8192, .i32⟩ : BufTy).Contents (Elt Ideal))

/-! ## Where the layout operations read: the composed index maps at a (row, class) index -/

/-- The k-th term of ‖x_b‖², seen through the two broadcasts [8192] → [8192,1] → [8192,1000], is entry (b, k). -/
theorem ix_xsq (b : Fin 8192) (c : Fin 1000) (k : Fin 2048) :
    idx_main_v1 (idx_main_v2 (idx_main_v6 (ix2 b c))) k = ix2 b k :=
  funext fun a => Fin.ext (by match a with | ⟨0, _⟩ => rfl | ⟨1, _⟩ => rfl)

/-- The k-th term of ‖c_c‖², seen through the two broadcasts [1000] → [1,1000] → [8192,1000], is entry (c, k). -/
theorem ix_csq (b : Fin 8192) (c : Fin 1000) (k : Fin 2048) :
    idx_main_v4 (idx_main_v5 (idx_main_v7 (ix2 b c))) k = ix2 c k :=
  funext fun a => Fin.ext (by match a with | ⟨0, _⟩ => rfl | ⟨1, _⟩ => rfl)

/-- The left factor of the k-th term of the product at (b, c) is entry (b, k) of the batch. -/
theorem ix_dotl (b : Fin 8192) (c : Fin 1000) (k : Fin 2048) :
    lidx_main_v10 (ix2 b c) k = ix2 b k :=
  funext fun a => Fin.ext (by match a with | ⟨0, _⟩ => rfl | ⟨1, _⟩ => rfl)

/-- The right factor, entry (k, c) of the transposed centres, is entry (c, k) of the centres. -/
theorem ix_dotr (b : Fin 8192) (c : Fin 1000) (k : Fin 2048) :
    idx_main_v9 (ridx_main_v10 (ix2 b c) k) = ix2 c k :=
  funext fun a => Fin.ext (by match a with | ⟨0, _⟩ => rfl | ⟨1, _⟩ => rfl)

/-- The label broadcast along the classes reads the label of row b. -/
theorem ix_lab (b : Fin 8192) (c : Fin 1000) :
    idx_main_v15 (idx_main_v18 (ix2 b c)) = ix1 b :=
  funext fun a => Fin.ext (by match a with | ⟨0, _⟩ => rfl)

/-- The class numbers broadcast along the rows read the number c. -/
theorem ix_cls (b : Fin 8192) (c : Fin 1000) :
    ((idx_main_v17 (idx_main_v19 (ix2 b c))) 0).val = c.val := rfl

/-! ## The values at a (row, class) index -/

/-- The clamped squared distance: min(hi, max(lo, (‖x_b‖² + ‖c_c‖²) − 2·⟨x_b, c_c⟩)). -/
theorem dist_eq (b : Fin 8192) (c : Fin 1000) : val_main_v14 (F := Ideal) X Cn (ix2 b c) = dist X Cn b c := by
  rw [val_main_v14_apply, val_main_call0_v4_apply, val_main_call0_v3_apply, val_main_cst_3_apply,
    val_main_call0_v2_apply, val_main_call0_v1_apply, val_main_call0_v0_apply, val_main_cst_2_apply,
    val_main_v13_apply, val_main_v8_apply, val_main_v6_apply, val_main_v2_apply, val_main_v1_apply,
    val_main_v7_apply, val_main_v5_apply, val_main_v4_apply, val_main_v12_apply, val_main_v11_apply,
    val_main_cst_1_apply, val_main_v10_apply, val_main_cst_apply, val_main_cst_0_apply]
  simp only [ix_xsq, ix_csq, ix_dotl, ix_dotr, val_main_v0_apply, val_main_v3_apply, val_main_v9_apply,
    Ideal.ofBits_def, Ideal.addf_def, Ideal.subf_def, Ideal.mulf_def, Ideal.maximumf_def, Ideal.minimumf_def,
    Ideal.ofBits_zero_f32, zero_add]
  rfl

/-- The mask: the label of row b equals the class number c, both as 32-bit words. -/
theorem hit_eq (b : Fin 8192) (c : Fin 1000) : val_main_v20 (F := Ideal) L (ix2 b c) = hit L b c := by
  rw [val_main_v20_apply, val_main_v18_apply, val_main_v15_apply, val_main_v19_apply, val_main_v17_apply,
    val_main_v16_apply, ix_lab, ix_cls]
  rfl

/-- The zero the first selection falls back to. -/
theorem zero1_eq (i : S8192x1000.Idx) : val_main_call1_v1 (F := Ideal) i = Ideal.ofBits .f32 0x00000000#32 := by
  rw [val_main_call1_v1_apply, val_main_call1_v0_apply, val_main_cst_4_apply, Ideal.ofBits_def]

/-- The zero the second selection puts at a row's own class. -/
theorem zero2_eq (i : S8192x1000.Idx) : val_main_call2_v1 (F := Ideal) i = Ideal.ofBits .f32 0x00000000#32 := by
  rw [val_main_call2_v1_apply, val_main_call2_v0_apply, val_main_cst_7_apply, Ideal.ofBits_def]

/-- The masked distances the first total sums: the distance at a row's own class, the zero word elsewhere. -/
theorem own_eq (b : Fin 8192) (c : Fin 1000) : val_main_v21 (F := Ideal) X Cn L (ix2 b c) = own X Cn L b c := by
  rw [val_main_v21_apply, hit_eq, dist_eq, zero1_eq]
  rfl

/-- The masked distances the second total sums. -/
theorem other_eq (b : Fin 8192) (c : Fin 1000) : val_main_v24 (F := Ideal) X Cn L (ix2 b c) = other X Cn L b c := by
  rw [val_main_v24_apply, hit_eq, dist_eq, zero2_eq]
  rfl

/-! ## The two totals and the result -/

/-- The sum over every (row, class) index is the double sum over rows and classes. -/
theorem ownTotal_eq : ∑ j : S8192x1000.Idx, val_main_v21 (F := Ideal) X Cn L j = ownTotal X Cn L := by
  refine (sum_idx2 (val_main_v21 (F := Ideal) X Cn L)).trans ?_
  exact Finset.sum_congr rfl fun b _ => Finset.sum_congr rfl fun c _ => own_eq X Cn L b c

theorem otherTotal_eq : ∑ j : S8192x1000.Idx, val_main_v24 (F := Ideal) X Cn L j = otherTotal X Cn L := by
  refine (sum_idx2 (val_main_v24 (F := Ideal) X Cn L)).trans ?_
  exact Finset.sum_congr rfl fun b _ => Finset.sum_congr rfl fun c _ => other_eq X Cn L b c

/-- The reference's result is the centre loss. -/
theorem result_eq : val_main_v28 (F := Ideal) X Cn L = fun _ => result X Cn L := by
  funext i
  rw [val_main_v28_apply, val_main_v23_apply, val_main_v22_apply, val_main_cst_6_apply, val_main_v27_apply,
    val_main_cst_10_apply, val_main_v26_apply, val_main_v25_apply, val_main_cst_9_apply, val_main_cst_5_apply,
    val_main_cst_8_apply, ownTotal_eq, otherTotal_eq]
  simp only [Ideal.ofBits_def, Ideal.subf_def, Ideal.mulf_def, Ideal.hostDivf_def, Ideal.ofBits_zero_f32, zero_add]
  rfl

end Cert.ReferenceIdeal.RefValue

end
-- ==== Proof.Pieces.lean ====
/-
  What the kernel body leaves in its [1, 2] accumulator and in its output block, case by case.

  At every grid point the body adds the point's own-class partial sum into entry (0, 0) of the accumulator and the
  point's other-class partial sum into entry (0, 1); at the first point it has zeroed the accumulator before, and at
  the last point it copies the accumulator to the output block after.  Here each case's stores are read back as ONE
  pair of entries: the accumulator after a point is the accumulator before it with the two partial sums added.
-/
import proofs.«165473_j89232240542211_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.ValueIdx

variable {F : FTy → Type} [FloatOps F]

theorem hz : (![0, 0] : Fin 2 → Nat) = fun _ => 0 := funext fun a => by fin_cases a <;> rfl

/-- The two entries of the accumulator as one-entry rectangles, and as indices. -/
abbrev r00 : Rect S1x2 := Rect.unit (s := S1x2) ![0, 0] S1x1.size inb_S1x2_S1x1_0_0
abbrev r01 : Rect S1x2 := Rect.unit (s := S1x2) ![0, 1] S1x1.size inb_S1x2_S1x1_0_1
abbrev e0 : S1x2.Idx := ix2 (0 : Fin 1) (0 : Fin 2)
abbrev e1 : S1x2.Idx := ix2 (0 : Fin 1) (1 : Fin 2)
abbrev u : S1x1.Idx := ix2 (0 : Fin 1) (0 : Fin 1)

/-- The accumulator after the body's two adding stores, from the accumulator before them (xs), the point's
    own-class partial sum (p7, a [1,1] vector) and its per-row other-class sums (p6, a column the second store sums). -/
def accStep (xs : Vec F S1x2 .f32) (p7 : FVec F S1x1 .f32) (p6 : FVec F S1024x1 .f32) : Vec F S1x2 .f32 :=
  View.canon (Val := Elt F) [⟨r01, k0_pay2 p6 (View.ld xs r01)⟩, ⟨r00, k0_pay1 p7 (View.ld xs r00)⟩]

/-! ## Reading a list of stores that ends with the two one-entry stores -/

theorem r00_emb_u : (r00 : Rect S1x2).emb u = e0 :=
  funext fun a => Fin.ext (by match a with | ⟨0, _⟩ => rfl | ⟨1, _⟩ => rfl)
theorem r01_emb_u : (r01 : Rect S1x2).emb u = e1 :=
  funext fun a => Fin.ext (by match a with | ⟨0, _⟩ => rfl | ⟨1, _⟩ => rfl)

/-- Entry (0, 0) is not under the store into entry (0, 1). -/
theorem e0_not_mem_r01 : e0 ∉ (r01 : Rect S1x2).set := by
  rw [Rect.mem_set_unit]
  intro h
  have h1 := (h 1).1
  exact absurd h1 (by decide)

/-- A load of entry (0, k) of contents xs reads xs there. -/
theorem ld_r00 (xs : Vec F S1x2 .f32) : View.ld (Val := Elt F) xs r00 u = xs e0 := congrArg xs r00_emb_u
theorem ld_r01 (xs : Vec F S1x2 .f32) : View.ld (Val := Elt F) xs r01 u = xs e1 := congrArg xs r01_emb_u

/-- No index of the store into entry (0, 1) is under the store into entry (0, 0). -/
theorem idx_r01_not_mem_r00 (j : (r01 : Rect S1x2).shape.Idx) :
    (r01 : Rect S1x2).toLoadRect.idx j ∉ (r00 : Rect S1x2).set := by
  rw [Rect.mem_set_unit]
  intro h
  have h1 : 1 + 1 * (j 1 : ℕ) < 0 + 1 := (h 1).2
  omega

/-- Entry (0, 1) read back after a whole store z and then a store into entry (0, 0) is still z's. -/
theorem readback_r01 (v : View sig .tc .vmem S1x2 .f32) (w : S1x1.Idx → Elt F .f32) (z : Vec F S1x2 .f32) :
    v.readCov [⟨r00, w⟩, ⟨Rect.unit (s := S1x2) ![0, 0] S1x2.size inb_S1x2_S1x2_0_0, z⟩] (r01 : Rect S1x2).toLoadRect
      = View.ld (Val := Elt F) z r01 := by
  rw [View.readCov_eq_canon']
  funext j
  rw [View.canon_cons_of_not_mem _ _ (idx_r01_not_mem_r00 j), View.canon_unit_zero (S := S1x2) hz]

/-- Entry (0, 0) read back after a whole store z is z's. -/
theorem readback_r00 (v : View sig .tc .vmem S1x2 .f32) (z : Vec F S1x2 .f32) :
    v.readCov [⟨Rect.unit (s := S1x2) ![0, 0] S1x2.size inb_S1x2_S1x2_0_0, z⟩] (r00 : Rect S1x2).toLoadRect
      = View.ld (Val := Elt F) z r00 := by
  rw [View.readCov_eq_canon']
  funext j
  rw [View.canon_unit_zero (S := S1x2) hz]

/-- Whatever was stored before them, after a store w₀ into entry (0, 0) and then a store w₁ into entry (0, 1) the
    buffer holds w₁ at (0, 1) and w₀ at (0, 0). -/
theorem canon_e1 (w₁ w₀ : S1x1.Idx → Elt F .f32) (L : List (View.Piece (Elt F) S1x2 .f32)) :
    View.canon (Val := Elt F) (⟨r01, w₁⟩ :: ⟨r00, w₀⟩ :: L) e1 = w₁ u := by
  rw [← r01_emb_u]; exact View.canon_cons_emb r01 w₁ _ u
theorem canon_e0 (w₁ w₀ : S1x1.Idx → Elt F .f32) (L : List (View.Piece (Elt F) S1x2 .f32)) :
    View.canon (Val := Elt F) (⟨r01, w₁⟩ :: ⟨r00, w₀⟩ :: L) e0 = w₀ u := by
  rw [View.canon_cons_of_not_mem _ _ e0_not_mem_r01, ← r00_emb_u]; exact View.canon_cons_emb r00 w₀ _ u

/-- The accumulator's two entries after the adding stores. -/
theorem accStep_e0 (xs : Vec F S1x2 .f32) (p7 : FVec F S1x1 .f32) (p6 : FVec F S1024x1 .f32) :
    accStep xs p7 p6 e0 = k0_pay1 p7 (View.ld xs r00) u := canon_e0 _ _ []
theorem accStep_e1 (xs : Vec F S1x2 .f32) (p7 : FVec F S1x1 .f32) (p6 : FVec F S1024x1 .f32) :
    accStep xs p7 p6 e1 = k0_pay2 p6 (View.ld xs r01) u := canon_e1 _ _ []

/-! ## The three cases -/

/-- A middle point (neither first nor last): the accumulator before it, with the two partial sums added. -/
theorem sout_B (c : Dev nD) (i : grid0.Coords) (arg1 : Memref sig .tc .vmem S1024x2048 .f32) (harg1 : arg1.IsWhole) (arg2 : Memref sig .tc .vmem S2048x1000 .bf16) (harg2 : arg2.IsWhole) (arg3 : Memref sig .tc .vmem S1x1000 .f32) (harg3 : arg3.IsWhole) (arg4 : Memref sig .tc .vmem S1024x1 .i32) (harg4 : arg4.IsWhole) (arg5 : Memref sig .tc .vmem S1x2 .f32) (harg5 : arg5.IsWhole) (arg6 : Memref sig .tc .vmem S1x2 .f32) (harg6 : arg6.IsWhole) (hc0 : ¬cond0_0 i) (hc1 : ¬cond0_1 i)
    (x0 : Vec F S1024x2048 .f32) (x1 : Vec F S2048x1000 .bf16) (x2 : Vec F S1x1000 .f32) (x3 : Vec F S1024x1 .i32) (xs0 : Vec F S1x2 .f32) :
    sout0_B_0 c i arg1 harg1 arg2 harg2 arg3 harg3 arg4 harg4 arg5 harg5 arg6 harg6 hc0 hc1 x0 x1 x2 x3 xs0 = accStep xs0 (k0_pay7 x0 x1 x2 x3) (k0_pay6 x0 x1 x2 x3) := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  simp only [View.readAt_eq_ld, harg1.read_unread, harg2.read_unread, harg3.read_unread, harg4.read_unread, harg6.read_unread,
    View.ld_unit_zero (S := S1024x2048) hz, View.ld_unit_zero (S := S2048x1000) hz, View.ld_unit_zero (S := S1x1000) hz,
    View.ld_unit_zero (S := S1024x1) hz]
  rfl

/-- The last point: the same two adding stores into the accumulator … -/
theorem sout_C (c : Dev nD) (i : grid0.Coords) (arg1 : Memref sig .tc .vmem S1024x2048 .f32) (harg1 : arg1.IsWhole) (arg2 : Memref sig .tc .vmem S2048x1000 .bf16) (harg2 : arg2.IsWhole) (arg3 : Memref sig .tc .vmem S1x1000 .f32) (harg3 : arg3.IsWhole) (arg4 : Memref sig .tc .vmem S1024x1 .i32) (harg4 : arg4.IsWhole) (arg5 : Memref sig .tc .vmem S1x2 .f32) (harg5 : arg5.IsWhole) (arg6 : Memref sig .tc .vmem S1x2 .f32) (harg6 : arg6.IsWhole) (hc0 : ¬cond0_0 i) (hc1 : cond0_1 i)
    (x0 : Vec F S1024x2048 .f32) (x1 : Vec F S2048x1000 .bf16) (x2 : Vec F S1x1000 .f32) (x3 : Vec F S1024x1 .i32) (xs0 : Vec F S1x2 .f32) :
    sout0_C_0 c i arg1 harg1 arg2 harg2 arg3 harg3 arg4 harg4 arg5 harg5 arg6 harg6 hc0 hc1 x0 x1 x2 x3 xs0 = accStep xs0 (k0_pay7 x0 x1 x2 x3) (k0_pay6 x0 x1 x2 x3) := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  simp only [View.readAt_eq_ld, harg1.read_unread, harg2.read_unread, harg3.read_unread, harg4.read_unread, harg6.read_unread,
    View.ld_unit_zero (S := S1024x2048) hz, View.ld_unit_zero (S := S2048x1000) hz, View.ld_unit_zero (S := S1x1000) hz,
    View.ld_unit_zero (S := S1024x1) hz]
  rfl

/-- … and the output block is the accumulator read back whole after them. -/
theorem out_C (c : Dev nD) (i : grid0.Coords) (arg1 : Memref sig .tc .vmem S1024x2048 .f32) (harg1 : arg1.IsWhole) (arg2 : Memref sig .tc .vmem S2048x1000 .bf16) (harg2 : arg2.IsWhole) (arg3 : Memref sig .tc .vmem S1x1000 .f32) (harg3 : arg3.IsWhole) (arg4 : Memref sig .tc .vmem S1024x1 .i32) (harg4 : arg4.IsWhole) (arg5 : Memref sig .tc .vmem S1x2 .f32) (harg5 : arg5.IsWhole) (arg6 : Memref sig .tc .vmem S1x2 .f32) (harg6 : arg6.IsWhole) (hc0 : ¬cond0_0 i) (hc1 : cond0_1 i)
    (x0 : Vec F S1024x2048 .f32) (x1 : Vec F S2048x1000 .bf16) (x2 : Vec F S1x1000 .f32) (x3 : Vec F S1024x1 .i32) (xs0 : Vec F S1x2 .f32) :
    out0_C_4 c i arg1 harg1 arg2 harg2 arg3 harg3 arg4 harg4 arg5 harg5 arg6 harg6 hc0 hc1 x0 x1 x2 x3 xs0 = accStep xs0 (k0_pay7 x0 x1 x2 x3) (k0_pay6 x0 x1 x2 x3) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero (S := S1x2) hz, View.readCov_eq_canon']
  simp only [View.readAt_eq_ld, harg1.read_unread, harg2.read_unread, harg3.read_unread, harg4.read_unread, harg6.read_unread,
    View.ld_unit_zero (S := S1024x2048) hz, View.ld_unit_zero (S := S2048x1000) hz, View.ld_unit_zero (S := S1x1000) hz,
    View.ld_unit_zero (S := S1024x1) hz]
  exact View.ld_unit_zero (S := S1x2) hz inb_S1x2_S1x2_0_0 _

/-- The first point: the accumulator is zeroed (the zero block z), then the two adding stores read the zeros back. -/
theorem sout_A_e0 (c : Dev nD) (i : grid0.Coords) (arg1 : Memref sig .tc .vmem S1024x2048 .f32) (harg1 : arg1.IsWhole) (arg2 : Memref sig .tc .vmem S2048x1000 .bf16) (harg2 : arg2.IsWhole) (arg3 : Memref sig .tc .vmem S1x1000 .f32) (harg3 : arg3.IsWhole) (arg4 : Memref sig .tc .vmem S1024x1 .i32) (harg4 : arg4.IsWhole) (arg5 : Memref sig .tc .vmem S1x2 .f32) (harg5 : arg5.IsWhole) (arg6 : Memref sig .tc .vmem S1x2 .f32) (harg6 : arg6.IsWhole) (hc0 : cond0_0 i) (hc1 : ¬cond0_1 i)
    (x0 : Vec F S1024x2048 .f32) (x1 : Vec F S2048x1000 .bf16) (x2 : Vec F S1x1000 .f32) (x3 : Vec F S1024x1 .i32) :
    sout0_A_0 c i arg1 harg1 arg2 harg2 arg3 harg3 arg4 harg4 arg5 harg5 arg6 harg6 hc0 hc1 x0 x1 x2 x3 e0 = k0_pay1 (k0_pay7 x0 x1 x2 x3) (View.ld (k0_pay3 (F := F)) r00) u := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [canon_e0]
  simp only [View.readAt_eq_ld, harg1.read_unread, harg2.read_unread, harg3.read_unread, harg4.read_unread, harg6.read_unread,
    View.ld_unit_zero (S := S1024x2048) hz, View.ld_unit_zero (S := S2048x1000) hz, View.ld_unit_zero (S := S1x1000) hz,
    View.ld_unit_zero (S := S1024x1) hz]
  rw [readback_r00]

theorem sout_A_e1 (c : Dev nD) (i : grid0.Coords) (arg1 : Memref sig .tc .vmem S1024x2048 .f32) (harg1 : arg1.IsWhole) (arg2 : Memref sig .tc .vmem S2048x1000 .bf16) (harg2 : arg2.IsWhole) (arg3 : Memref sig .tc .vmem S1x1000 .f32) (harg3 : arg3.IsWhole) (arg4 : Memref sig .tc .vmem S1024x1 .i32) (harg4 : arg4.IsWhole) (arg5 : Memref sig .tc .vmem S1x2 .f32) (harg5 : arg5.IsWhole) (arg6 : Memref sig .tc .vmem S1x2 .f32) (harg6 : arg6.IsWhole) (hc0 : cond0_0 i) (hc1 : ¬cond0_1 i)
    (x0 : Vec F S1024x2048 .f32) (x1 : Vec F S2048x1000 .bf16) (x2 : Vec F S1x1000 .f32) (x3 : Vec F S1024x1 .i32) :
    sout0_A_0 c i arg1 harg1 arg2 harg2 arg3 harg3 arg4 harg4 arg5 harg5 arg6 harg6 hc0 hc1 x0 x1 x2 x3 e1 = k0_pay2 (k0_pay6 x0 x1 x2 x3) (View.ld (k0_pay3 (F := F)) r01) u := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [canon_e1]
  simp only [View.readAt_eq_ld, harg1.read_unread, harg2.read_unread, harg3.read_unread, harg4.read_unread, harg6.read_unread,
    View.ld_unit_zero (S := S1024x2048) hz, View.ld_unit_zero (S := S2048x1000) hz, View.ld_unit_zero (S := S1x1000) hz,
    View.ld_unit_zero (S := S1024x1) hz]
  rw [readback_r01]

end Cert.KernelIdeal.Pieces

end
-- ==== Proof.Acc.lean ====
/-
  The accumulator point by point.  After the first grid point it holds, entry by entry, the zero block with that
  point's two partial sums added; after every later point, what it held before with that point's two partial sums
  added; and the block written back at the last point is the accumulator after that point.
-/
import proofs.«165473_j89232240542211_1_alg».proof.Proof.Pieces

noncomputable section

namespace Cert.KernelIdeal.Acc

open Cert.KernelIdeal Cert.KernelIdeal.Gen Cert.KernelIdeal.Pieces
open Idealize.ShloMosaic Idealize.ShloMosaic.TcCoe Idealize.SL.Sem Idealize.ShloMosaic.ValueIdx

variable {F : FTy → Type} [FloatOps F]
variable (m : (ℓ : Loc nD τ sig) → Buf (Elt F) ℓ) (c : Dev nD)

/-- The accumulator after point n. -/
abbrev S (n : ℕ) (h : n < cfg0.N) : Vec F S1x2 .f32 := (outsAt0 m c n h).2

/-- Point t's own-class partial sum (a [1,1] vector) and its per-row other-class sums (a column), of its blocks. -/
abbrev p7 (t : Fin cfg0.N) : FVec F S1x1 .f32 := k0_pay7 (iblk m c 0 t) (iblk m c 1 t) (iblk m c 2 t) (iblk m c 3 t)
abbrev p6 (t : Fin cfg0.N) : FVec F S1024x1 .f32 := k0_pay6 (iblk m c 0 t) (iblk m c 1 t) (iblk m c 2 t) (iblk m c 3 t)

/-- After the first point: the zero block's entries with the first point's sums added. -/
theorem S_first_e0 (h : 0 < cfg0.N) :
    S m c 0 h e0 = k0_pay1 (p7 m c ⟨0, h⟩) (View.ld (k0_pay3 (F := F)) r00) u := by
  have h1 : ¬(⟨0, h⟩ : Fin cfg0.N).val % 8 = 7 := by dsimp only; omega
  have e := outsAt0_A m c ⟨0, h⟩ rfl h1
  rw [show S m c 0 h = (outsAt0 m c (⟨0, h⟩ : Fin cfg0.N).val (⟨0, h⟩ : Fin cfg0.N).isLt).2 from rfl, e]
  exact sout_A_e0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun hh => h1 ((hcond0_1 ⟨0, h⟩).mp hh)) (iblk m c 0 ⟨0, h⟩) (iblk m c 1 ⟨0, h⟩) (iblk m c 2 ⟨0, h⟩) (iblk m c 3 ⟨0, h⟩)

theorem S_first_e1 (h : 0 < cfg0.N) :
    S m c 0 h e1 = k0_pay2 (p6 m c ⟨0, h⟩) (View.ld (k0_pay3 (F := F)) r01) u := by
  have h1 : ¬(⟨0, h⟩ : Fin cfg0.N).val % 8 = 7 := by dsimp only; omega
  have e := outsAt0_A m c ⟨0, h⟩ rfl h1
  rw [show S m c 0 h = (outsAt0 m c (⟨0, h⟩ : Fin cfg0.N).val (⟨0, h⟩ : Fin cfg0.N).isLt).2 from rfl, e]
  exact sout_A_e1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun hh => h1 ((hcond0_1 ⟨0, h⟩).mp hh)) (iblk m c 0 ⟨0, h⟩) (iblk m c 1 ⟨0, h⟩) (iblk m c 2 ⟨0, h⟩) (iblk m c 3 ⟨0, h⟩)

/-- After a later point: the accumulator before it with the point's sums added (a middle point and the last point
    alike). -/
theorem S_next (n : ℕ) (h : n + 1 < cfg0.N) :
    S m c (n + 1) h = accStep (S m c n (Nat.lt_of_succ_lt h)) (p7 m c ⟨n + 1, h⟩) (p6 m c ⟨n + 1, h⟩) := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [show S m c (n + 1) h = (outsAt0 m c (⟨n + 1, h⟩ : Fin cfg0.N).val (⟨n + 1, h⟩ : Fin cfg0.N).isLt).2 from rfl,
      outsAt0_C m c ⟨n + 1, h⟩ h0 h1]
    exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  · rw [show S m c (n + 1) h = (outsAt0 m c (⟨n + 1, h⟩ : Fin cfg0.N).val (⟨n + 1, h⟩ : Fin cfg0.N).isLt).2 from rfl,
      outsAt0_B m c ⟨n + 1, h⟩ h0 h1]
    exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- At the last point the block written back is the accumulator after the point. -/
theorem out_last (t : Fin cfg0.N) (h7 : t.val % 8 = 7) :
    (outsAt0 m c t.val t.isLt).1 = (outsAt0 m c t.val t.isLt).2 := by
  have h0 : ¬t.val % 8 = 0 := by omega
  rw [outsAt0_C m c t h0 h7]
  exact (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t) _).trans
    (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t) _).symm

end Cert.KernelIdeal.Acc

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.PayValue.lean ====
/-
  The kernel body's arithmetic at one grid point, read at the ideal instance: from the point's four input blocks to the
  two partial sums it adds into the accumulator.
-/
import proofs.«165473_j89232240542211_1_alg».proof.Proof.Gen.KernelIdeal.Skeleton
import proofs.«165473_j89232240542211_1_alg».proof.Proof.Spec
import proofs.«165473_j89232240542211_1_alg».proof.Proof.LibLaneSum
import proofs.«165473_j89232240542211_1_alg».proof.Proof.LibColumn
import proofs.«165473_j89232240542211_1_alg».proof.Proof.LibPlainDot
import Idealize.ShloMosaic.Lib.Pipeline.Value
import Idealize.ShloMosaic.Lib.ValueLayout

noncomputable section

open scoped BigOperators

namespace Cert.KernelIdeal.PayValue

open Cert.KernelIdeal Cert.KernelIdeal.Gen
open Idealize.ShloMosaic Idealize.ShloMosaic.ValueIdx CenterLoss

variable (X : SX.Idx → EReal) (Cn : SC.Idx → EReal) (L : SL.Idx → BitVec 32) (t : Fin 8)
  (x0 : Vec Ideal S1024x2048 .f32) (x1 : Vec Ideal S2048x1000 .bf16) (x2 : Vec Ideal S1x1000 .f32) (x3 : Vec Ideal S1024x1 .i32)

/-! ## The non-pointwise steps, each read at an index -/

/-- The sum of the squares of row r's entries, kept as a column and spread over the classes: the same sum at
    every class c. -/
theorem xsq_at (r : Fin 1024) (c : Fin 1000) :
    broadcastTo S1024x1000 (shapeCast S1024x1 (multiReduction (F := Ideal) .add [1] S1024 (mulf x0 x0) 0x00000000#32 reduces_S1024x2048_S1024 (.inl rfl) rfl)
        shapeCasts_S1024_S1024x1) broadcasts_S1024x1_S1024x1000 (ix2 r c)
      = ∑ k : Fin 2048, x0 (ix2 r k) * x0 (ix2 r k) := by
  refine (Cert.GraphConv.Column.broadcastTo_a1_ab_apply _ _ r c).trans ?_
  refine (Cert.GraphConv.Column.shapeCast_a_a1_apply _ _ r 0).trans ?_
  exact Cert.LaneSum.sum_last2 _ _ _ _ _ r

/-- The product's dimension record is the plain one: rows by columns, contracted over the shared axis. -/
theorem dims_plain : dot_S1024x2048_S2048x1000_S1024x1000_1_0_0_1_n_n = DotDims.plain 1024 2048 1000 := rfl

/-- The product of the rows with the transposed centres at entry (r, c): the sum over the 2048 features. Over the
    extended reals the narrowing of the left operand changes nothing. -/
theorem dot_at (r : Fin 1024) (c : Fin 1000) :
    matmul (F := Ideal) dot_S1024x2048_S2048x1000_S1024x1000_1_0_0_1_n_n none (truncf .bf16 x0 bitsLt_bf16_f32 : FVec Ideal S1024x2048 .bf16)
        (shapeCast S2048x1000 x1 shapeCasts_S2048x1000_S2048x1000 : FVec Ideal S2048x1000 .bf16) (constant S1024x1000 .f32 0x00000000#32) (ix2 r c)
      = ∑ k : Fin 2048, (x0 (ix2 r k) : EReal) * (x1 (ix2 k c) : EReal) := by
  refine (Cert.PlainDot.matmul_zero_apply _ dims_plain none _ _ r c).trans ?_
  refine Finset.sum_congr rfl fun k _ => ?_
  exact congrArg ((x0 (ix2 r k) : EReal) * ·) (congrFun (shapeCast_self x1 shapeCasts_S2048x1000_S2048x1000) (ix2 k c))

/-- The row of centre norms spread over the 1024 rows: at (r, c) it is the norm of centre c. -/
theorem csq_at (r : Fin 1024) (c : Fin 1000) :
    broadcastTo S1024x1000 (shapeCast S1x1000 x2 shapeCasts_S1x1000_S1x1000) broadcasts_S1x1000_S1024x1000 (ix2 r c)
      = x2 (ix2 (0 : Fin 1) c) := by
  refine (broadcastTo_1b_ab_apply _ _ r c).trans ?_
  exact congrFun (shapeCast_self x2 shapeCasts_S1x1000_S1x1000) (ix2 (0 : Fin 1) c)

/-- Each row's sum over the classes, kept as a column: at row r, the sum of that row's 1000 entries. -/
theorem rowsum_at (src : FVec Ideal S1024x1000 .f32) (r : Fin 1024) :
    shapeCast S1024x1 (multiReduction (F := Ideal) .add [1] S1024 src 0x00000000#32 reduces_S1024x1000_S1024 (.inl rfl) rfl)
        shapeCasts_S1024_S1024x1 (ix2 r (0 : Fin 1))
      = ∑ c : Fin 1000, src (ix2 r c) := by
  refine (Cert.GraphConv.Column.shapeCast_a_a1_apply _ _ r 0).trans ?_
  exact Cert.LaneSum.sum_last2 _ _ _ _ _ r

/-- A column's sum over the rows, kept as a one-entry matrix: the sum of the column's 1024 entries. -/
theorem colsum_at (col : FVec Ideal S1024x1 .f32) :
    shapeCast S1x1 (multiReduction (F := Ideal) .add [0] S1 col 0x00000000#32 reduces_S1024x1_S1 (.inl rfl) rfl)
        shapeCasts_S1_S1x1 (ix2 (0 : Fin 1) (0 : Fin 1))
      = ∑ r : Fin 1024, col (ix2 r (0 : Fin 1)) := by
  refine (Cert.GraphConv.Column.shapeCast_a_a1_apply _ _ (0 : Fin 1) 0).trans ?_
  exact Cert.LaneSum.sum_first2 _ _ _ _ _ (0 : Fin 1)

/-! ## The payloads -/

/-- The clamped distances of the point's 1024 rows to the 1000 centres. -/
theorem pay4_at (h0 : ∀ (r : Fin 1024) (k : Fin 2048), x0 (ix2 r k) = X (ix2 (row t r) k))
    (h1 : ∀ (k : Fin 2048) (c : Fin 1000), x1 (ix2 k c) = Cn (ix2 c k))
    (h2 : ∀ c : Fin 1000, x2 (ix2 (0 : Fin 1) c) = csq Cn c) (r : Fin 1024) (c : Fin 1000) :
    k0_pay4 (F := Ideal) x0 x1 x2 (ix2 r c) = dist X Cn (row t r) c := by
  -- min, max, subtraction, addition and the doubling act entry by entry; what is left is the three sums
  unfold k0_pay4 CenterLoss.dist
  refine congrArg (min _) (congrArg (max _) ?_)
  refine congrArg₂ (· - ·) (congrArg₂ (· + ·) ?_ ?_) (congrArg (_ * ·) ?_)
  · refine (xsq_at x0 r c).trans ?_
    unfold xsq
    exact Finset.sum_congr rfl fun k _ => by rw [h0 r k]
  · exact (csq_at x2 r c).trans (h2 c)
  · refine (dot_at x0 x1 r c).trans ?_
    unfold CenterLoss.dot
    exact Finset.sum_congr rfl fun k _ => by rw [h0 r k, h1 k c]

/-- The own-class mask of the point's rows. -/
theorem pay5_at (h3 : ∀ r : Fin 1024, x3 (ix2 r (0 : Fin 1)) = L (ix1 (row t r))) (r : Fin 1024) (c : Fin 1000) :
    k0_pay5 (F := Ideal) x3 (ix2 r c) = hit L (row t r) c := by
  -- the label column spread over the classes against the class counter along the second axis
  unfold k0_pay5 hit
  refine congrArg₂ (IntOp.cmpi .eq) ?_ ?_
  · refine (Cert.GraphConv.Column.broadcastTo_a1_ab_apply _ _ r c).trans ?_
    exact (congrFun (shapeCast_self x3 shapeCasts_S1024x1_S1024x1) (ix2 r (0 : Fin 1))).trans (h3 r)
  · exact iota_single_apply .tc S1024x1000 32 1 _ (ix2 r c)

/-- The point's own-class partial sum: over its rows, over the classes. -/
theorem pay7_at (h0 : ∀ (r : Fin 1024) (k : Fin 2048), x0 (ix2 r k) = X (ix2 (row t r) k))
    (h1 : ∀ (k : Fin 2048) (c : Fin 1000), x1 (ix2 k c) = Cn (ix2 c k))
    (h2 : ∀ c : Fin 1000, x2 (ix2 (0 : Fin 1) c) = csq Cn c)
    (h3 : ∀ r : Fin 1024, x3 (ix2 r (0 : Fin 1)) = L (ix1 (row t r))) :
    k0_pay7 (F := Ideal) x0 x1 x2 x3 (ix2 (0 : Fin 1) (0 : Fin 1))
      = ∑ r : Fin 1024, ∑ c : Fin 1000, own X Cn L (row t r) c := by
  -- the sum over the rows of the sums over the classes of the masked distances
  unfold k0_pay7
  refine (colsum_at _).trans ?_
  refine Finset.sum_congr rfl fun r _ => ?_
  refine (rowsum_at _ r).trans ?_
  refine Finset.sum_congr rfl fun c _ => ?_
  refine (select_apply _ _ _ (ix2 r c)).trans ?_
  unfold own
  exact congrArg₂ (fun m d => Scalar.select m d (Ideal.ofBits .f32 0x00000000#32))
    (pay5_at L t x3 h3 r c) (pay4_at X Cn t x0 x1 x2 h0 h1 h2 r c)

/-- The second accumulator entry after the point: what it held plus the point's other-class partial sum. -/
theorem pay2_at (h0 : ∀ (r : Fin 1024) (k : Fin 2048), x0 (ix2 r k) = X (ix2 (row t r) k))
    (h1 : ∀ (k : Fin 2048) (c : Fin 1000), x1 (ix2 k c) = Cn (ix2 c k))
    (h2 : ∀ c : Fin 1000, x2 (ix2 (0 : Fin 1) c) = csq Cn c)
    (h3 : ∀ r : Fin 1024, x3 (ix2 r (0 : Fin 1)) = L (ix1 (row t r))) (v : Vec Ideal S1x1 .f32) :
    k0_pay2 (F := Ideal) (k0_pay6 (F := Ideal) x0 x1 x2 x3) v (ix2 (0 : Fin 1) (0 : Fin 1))
      = v (ix2 (0 : Fin 1) (0 : Fin 1)) + ∑ r : Fin 1024, ∑ c : Fin 1000, other X Cn L (row t r) c := by
  -- the old entry plus the sum over the rows of the column of per-row sums of the complementary masked distances
  unfold k0_pay2
  refine (congrFun (shapeCast_self _ shapeCasts_S1x1_S1x1) (ix2 (0 : Fin 1) (0 : Fin 1))).trans ?_
  refine congrArg (v (ix2 (0 : Fin 1) (0 : Fin 1)) + ·) ?_
  refine (colsum_at _).trans ?_
  refine Finset.sum_congr rfl fun r _ => ?_
  unfold k0_pay6
  refine (rowsum_at _ r).trans ?_
  refine Finset.sum_congr rfl fun c _ => ?_
  refine (select_apply _ _ _ (ix2 r c)).trans ?_
  unfold other
  exact congrArg₂ (fun m d => Scalar.select m (Ideal.ofBits .f32 0x00000000#32) d)
    (pay5_at L t x3 h3 r c) (pay4_at X Cn t x0 x1 x2 h0 h1 h2 r c)

/-- The first accumulator entry after the point: what it held plus the partial sum handed in. -/
theorem pay1_at (p : FVec Ideal S1x1 .f32) (v : Vec Ideal S1x1 .f32) :
    k0_pay1 (F := Ideal) p v (ix2 (0 : Fin 1) (0 : Fin 1))
      = v (ix2 (0 : Fin 1) (0 : Fin 1)) + p (ix2 (0 : Fin 1) (0 : Fin 1)) := by
  unfold k0_pay1
  exact congrFun (shapeCast_self (addf v p) shapeCasts_S1x1_S1x1) (ix2 (0 : Fin 1) (0 : Fin 1))

end Cert.KernelIdeal.PayValue

end
-- ==== Proof.Blocks.lean ====
/-
  What the kernel's four input windows hold at a grid point, in terms of the three argument arrays: block t of the
  batch's rows; the centres transposed (the same block at every point); the row of the centres' squared norms (the
  same at every point); block t of the labels, as a column.
-/
import proofs.«165473_j89232240542211_1_alg».proof.Proof.Gen.KernelIdeal.Frame
import proofs.«165473_j89232240542211_1_alg».proof.Proof.Spec
import Idealize.ShloMosaic.Lib.Pipeline.Value
import Idealize.ShloMosaic.Lib.StableHlo.Run
import Idealize.ShloMosaic.Lib.Tactic

noncomputable section

open scoped BigOperators

namespace Cert.KernelIdeal.Blocks

open Cert.KernelIdeal Cert.KernelIdeal.Gen
open Idealize.ShloMosaic Idealize.ShloMosaic.TcCoe Idealize.SL.Sem Idealize.ShloMosaic.ValueIdx CenterLoss

variable (m : (ℓ : Loc nD τ sig) → Buf (Elt Ideal) ℓ) (c : Dev nD)

/-- A grid point as a block number below 8. -/
def pt (t : Fin cfg0.N) : Fin 8 := ⟨t.val, lt_of_lt_of_eq t.isLt (show cfg0.N = 8 from N_0)⟩

/-- The three argument arrays as launched. -/
abbrev argX : SX.Idx → EReal := m ((c : Thread nD τ).loc main_arg0)
abbrev argC : SC.Idx → EReal := m ((c : Thread nD τ).loc main_arg1)
abbrev argL : SL.Idx → BitVec 32 := m ((c : Thread nD τ).loc main_arg2)

/-! ## Window 0: the batch, as launched -/

/-- Window 0 at point t: rows 1024·t … 1024·t + 1023 of the batch. -/
theorem blk0 (t : Fin cfg0.N) (r : Fin 1024) (k : Fin 2048) :
    (iblk m c 0 t : Vec Ideal S1024x2048 .f32) (ix2 r k) = argX m c (ix2 (row (pt t) r) k) := by
  -- the block index of window 0 is (t, 0); a block's coordinate is index × size + the coordinate inside the block
  have hi : ∀ t : Fin cfg0.N, win0_0.index t (0 : Fin 2) = t.val ∧ win0_0.index t (1 : Fin 2) = 0 :=
    (by decide +kernel : ∀ t : Fin grid0.N, win0_0.index t (0 : Fin 2) = t.val ∧ win0_0.index t (1 : Fin 2) = 0)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = (pt t).val * 1024 + r.val; rw [(hi t).1]; show _ = t.val * 1024 + r.val; omega
  | ⟨1, _⟩ => show win0_0.index t 1 * 2048 + 1 * k.val = k.val; rw [(hi t).2]; omega

/-! ## Window 1: the centres, narrowed and transposed before the region -/

/-- The centres' transposed array, as the host operations before the region leave it. -/
theorem v1_eq : (V m c main_v1 : S2048x1000.Idx → EReal)
    = transpose S2048x1000 [1, 0] (truncf (F := Ideal) .bf16 (argC m c) bitsLt_bf16_f32) transposes_S1000x2048_S2048x1000_1_0 := by
  show StableHlo.after hostOps0 (fun b => m (c, b)) (Proc.devRef .tc main_v1) = _
  after_results

/-- It holds coordinate k of centre cc at (k, cc): over the extended reals the narrowing changes nothing. -/
theorem v1_apply (k : Fin 2048) (cc : Fin 1000) :
    (V m c main_v1 : S2048x1000.Idx → EReal) (ix2 k cc) = argC m c (ix2 cc k) := by
  rw [v1_eq]
  refine (transpose_apply _ _ _ _ (ix2 cc k) (fun b => match b with | ⟨0, _⟩ => rfl | ⟨1, _⟩ => rfl)).trans ?_
  rfl

/-- Window 1 at every point: the centres transposed. -/
theorem blk1 (t : Fin cfg0.N) (k : Fin 2048) (cc : Fin 1000) :
    (iblk m c 1 t : Vec Ideal S2048x1000 .bf16) (ix2 k cc) = argC m c (ix2 cc k) := by
  -- the block index of window 1 is (0, 0) at every point, and the block is the whole array
  have hi : ∀ t : Fin cfg0.N, win0_1.index t (0 : Fin 2) = 0 ∧ win0_1.index t (1 : Fin 2) = 0 :=
    (by decide +kernel : ∀ t : Fin grid0.N, win0_1.index t (0 : Fin 2) = 0 ∧ win0_1.index t (1 : Fin 2) = 0)
  unfold iblk
  rw [View.read_apply]
  refine Eq.trans ?_ (v1_apply m c k cc)
  show V m c main_v1 _ = V m c main_v1 _
  congr 1
  funext a
  apply Fin.ext
  match a with
  | ⟨0, _⟩ => show win0_1.index t 0 * 2048 + 1 * k.val = k.val; rw [(hi t).1]; omega
  | ⟨1, _⟩ => show win0_1.index t 1 * 1000 + 1 * cc.val = cc.val; rw [(hi t).2]; omega

/-! ## Window 2: the centres' squared norms, computed before the region -/

/-- A row of the entrywise square, summed from the zero word, is that row's squared norm: the zero word is 0, and the
    sum along axis 1 at row cc runs over the entries (cc, k). -/
theorem rowsq (x : SC.Idx → EReal) (cc : Fin 1000) :
    (Host.reduceAdd (F := Ideal) (mulf (F := Ideal) (s := S1000x2048) (φ := .f32) x x) (constant (F := Ideal) S_ .f32 0x00000000#32)
      reducesTo_S1000x2048_S1000_d1 h_S_ (ix1 cc) : EReal) = csq x cc := by
  unfold csq
  generalize hy : mulf (F := Ideal) (s := S1000x2048) (φ := .f32) x x = y0
  simp only [Host.reduceAdd, Ideal.hostReduceAdd_def]
  rw [Ideal.hostReduceAdd_single reducesTo_S1000x2048_S1000_d1 (by decide)]
  have h0 : ((constant (F := Ideal) S_ .f32 0x00000000#32) (Shape.Idx.first h_S_) : EReal) = 0 := Ideal.ofBits_zero_f32
  rw [h0, zero_add]
  subst hy
  refine Finset.sum_congr rfl fun k _ => ?_
  have hk : ∀ (h : Shape.Reduces S1000x2048 [1] S1000), (h.lift (ix1 cc) k : S1000x2048.Idx) = ix2 cc k := fun h =>
    funext fun a => Fin.ext (by match a with | ⟨0, _⟩ => rfl | ⟨1, _⟩ => rfl)
  rw [hk]
  rfl

/-- The row of squared norms, as the host operations before the region leave it: the centres squared entrywise, summed
    along each row from the zero word, made a column, and transposed into a row. -/
theorem v5_eq : (V m c main_v5 : S1x1000.Idx → EReal)
    = transpose S1x1000 [1, 0]
        (broadcastInDim S1000x1 ![0] bcast_S1000_S1000x1_0
          (Host.reduceAdd (F := Ideal) (mulf (F := Ideal) (argC m c) (argC m c)) (constant (F := Ideal) S_ .f32 0x00000000#32)
            reducesTo_S1000x2048_S1000_d1 h_S_))
        transposes_S1000x1_S1x1000_1_0 := by
  show StableHlo.after hostOps0 (fun b => m (c, b)) (Proc.devRef .tc main_v5) = _
  after_results

/-- It holds centre cc's squared norm at (0, cc). -/
theorem v5_apply (z : Fin 1) (cc : Fin 1000) :
    (V m c main_v5 : S1x1000.Idx → EReal) (ix2 z cc) = csq (argC m c) cc := by
  rw [v5_eq]
  refine (transpose_apply _ _ _ _ (ix2 cc z) (fun b => match b with | ⟨0, _⟩ => rfl | ⟨1, _⟩ => rfl)).trans ?_
  refine (broadcastInDim_apply _ _ _ _ (ix1 cc) (fun a => match a with | ⟨0, _⟩ => rfl)).trans ?_
  exact rowsq (argC m c) cc

/-- Window 2 at every point: the centres' squared norms, as a row. -/
theorem blk2 (t : Fin cfg0.N) (cc : Fin 1000) :
    (iblk m c 2 t : Vec Ideal S1x1000 .f32) (ix2 (0 : Fin 1) cc) = csq (argC m c) cc := by
  -- the block index of window 2 is (0, 0) at every point, and the block is the whole array
  have hi : ∀ t : Fin cfg0.N, win0_2.index t (0 : Fin 2) = 0 ∧ win0_2.index t (1 : Fin 2) = 0 :=
    (by decide +kernel : ∀ t : Fin grid0.N, win0_2.index t (0 : Fin 2) = 0 ∧ win0_2.index t (1 : Fin 2) = 0)
  unfold iblk
  rw [View.read_apply]
  refine Eq.trans ?_ (v5_apply m c 0 cc)
  show V m c main_v5 _ = V m c main_v5 _
  congr 1
  funext a
  apply Fin.ext
  match a with
  | ⟨0, _⟩ => show win0_2.index t 0 * 1 + 1 * 0 = 0; rw [(hi t).1]
  | ⟨1, _⟩ => show win0_2.index t 1 * 1000 + 1 * cc.val = cc.val; rw [(hi t).2]; omega

/-! ## Window 3: the labels, made a column before the region -/

/-- The labels' column array, as the host operations before the region leave it: the labels broadcast to a column. -/
theorem v6_eq : (V m c main_v6 : S8192x1.Idx → BitVec 32)
    = broadcastInDim S8192x1 ![0] bcast_S8192_S8192x1_0 (argL m c) := by
  show StableHlo.after hostOps0 (fun b => m (c, b)) (Proc.devRef .tc main_v6) = _
  after_results

/-- It holds label b at (b, 0). -/
theorem v6_apply (b : Fin 8192) (z : Fin 1) :
    (V m c main_v6 : S8192x1.Idx → BitVec 32) (ix2 b z) = argL m c (ix1 b) := by
  rw [v6_eq]
  exact broadcastInDim_apply _ _ _ _ _ (fun a => match a with | ⟨0, _⟩ => rfl)

/-- Window 3 at point t: labels 1024·t … 1024·t + 1023, as a column. -/
theorem blk3 (t : Fin cfg0.N) (r : Fin 1024) :
    (iblk m c 3 t : Vec Ideal S1024x1 .i32) (ix2 r (0 : Fin 1)) = argL m c (ix1 (row (pt t) r)) := by
  -- the block index of window 3 is (t, 0)
  have hi : ∀ t : Fin cfg0.N, win0_3.index t (0 : Fin 2) = t.val ∧ win0_3.index t (1 : Fin 2) = 0 :=
    (by decide +kernel : ∀ t : Fin grid0.N, win0_3.index t (0 : Fin 2) = t.val ∧ win0_3.index t (1 : Fin 2) = 0)
  unfold iblk
  rw [View.read_apply]
  refine Eq.trans ?_ (v6_apply m c (row (pt t) r) 0)
  show V m c main_v6 _ = V m c main_v6 _
  congr 1
  funext a
  apply Fin.ext
  match a with
  | ⟨0, _⟩ => show win0_3.index t 0 * 1024 + 1 * r.val = (pt t).val * 1024 + r.val; rw [(hi t).1]; show _ = t.val * 1024 + r.val; omega
  | ⟨1, _⟩ => show win0_3.index t 1 * 1 + 1 * 0 = 0; rw [(hi t).2]

end Cert.KernelIdeal.Blocks

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.AccChain.lean ====
/-
  The accumulator holds the partial sums.  Entry (0, 0) after point n is the sum, over the points up to n, of each
  point's own-class partial sum; entry (0, 1) likewise for the other-class sums.  A point's partial sum runs over its
  1024 rows and the 1000 classes, and the eight points' rows are all 8192 rows, so after the last point the two
  entries are the two totals of the specification.  Only commutativity and associativity of addition are used: the
  extended reals are an additive commutative monoid, and no value needs to be finite.
-/
import proofs.«165473_j89232240542211_1_alg».proof.Proof.Acc
import proofs.«165473_j89232240542211_1_alg».proof.Proof.PayValue
import proofs.«165473_j89232240542211_1_alg».proof.Proof.Blocks
import proofs.«165473_j89232240542211_1_alg».proof.Proof.Spec
import proofs.«165473_j89232240542211_1_alg».proof.Proof.LibBlockSums

noncomputable section

open scoped BigOperators

namespace Cert.KernelIdeal.AccChain

open Cert.KernelIdeal Cert.KernelIdeal.Gen Cert.KernelIdeal.Pieces Cert.KernelIdeal.Acc Cert.KernelIdeal.PayValue
open Cert.KernelIdeal.Blocks
open Idealize.ShloMosaic Idealize.ShloMosaic.TcCoe Idealize.SL.Sem Idealize.ShloMosaic.ValueIdx CenterLoss

variable (m : (ℓ : Loc nD τ sig) → Buf (Elt Ideal) ℓ) (c : Dev nD)

/-- Point k's own-class partial sum: over its 1024 rows and the 1000 classes (zero past the grid). -/
def ownPart (k : ℕ) : EReal :=
  if h : k < 8 then ∑ r : Fin 1024, ∑ cc : Fin 1000, own (argX m c) (argC m c) (argL m c) (row ⟨k, h⟩ r) cc else 0
/-- Point k's other-class partial sum. -/
def otherPart (k : ℕ) : EReal :=
  if h : k < 8 then ∑ r : Fin 1024, ∑ cc : Fin 1000, other (argX m c) (argC m c) (argL m c) (row ⟨k, h⟩ r) cc else 0

theorem ownPart_pt (t : Fin cfg0.N) :
    ownPart m c t.val = ∑ r : Fin 1024, ∑ cc : Fin 1000, own (argX m c) (argC m c) (argL m c) (row (pt t) r) cc := by
  unfold ownPart; exact dif_pos (pt t).isLt
theorem otherPart_pt (t : Fin cfg0.N) :
    otherPart m c t.val = ∑ r : Fin 1024, ∑ cc : Fin 1000, other (argX m c) (argC m c) (argL m c) (row (pt t) r) cc := by
  unfold otherPart; exact dif_pos (pt t).isLt

/-- The zero block's entries are zero. -/
theorem zero_e (y : S1x2.Idx) : k0_pay3 (F := Ideal) y = 0 := by
  unfold k0_pay3
  rw [shapeCast_self]
  exact Ideal.ofBits_zero_f32

/-- Point t's own-class vector holds the point's own-class partial sum. -/
theorem p7_eq (t : Fin cfg0.N) : p7 m c t u = ownPart m c t.val := by
  rw [ownPart_pt]
  exact pay7_at (argX m c) (argC m c) (argL m c) (pt t) (iblk m c 0 t) (iblk m c 1 t) (iblk m c 2 t) (iblk m c 3 t) (blk0 m c t) (blk1 m c t) (blk2 m c t) (blk3 m c t)

/-- The second adding store, of point t's other-class column onto a value v. -/
theorem p6_eq (t : Fin cfg0.N) (v : Vec Ideal S1x1 .f32) :
    k0_pay2 (F := Ideal) (p6 m c t) v u = v u + otherPart m c t.val := by
  rw [otherPart_pt]
  exact pay2_at (argX m c) (argC m c) (argL m c) (pt t) (iblk m c 0 t) (iblk m c 1 t) (iblk m c 2 t) (iblk m c 3 t) (blk0 m c t) (blk1 m c t) (blk2 m c t) (blk3 m c t) v

/-! ## Entry by entry, point by point -/

theorem S0_e0 (h : 0 < cfg0.N) : S m c 0 h e0 = 0 + ownPart m c 0 := by
  rw [S_first_e0, pay1_at, p7_eq]
  exact congrArg (fun z : EReal => z + ownPart m c 0) (zero_e _)
theorem S0_e1 (h : 0 < cfg0.N) : S m c 0 h e1 = 0 + otherPart m c 0 := by
  rw [S_first_e1, p6_eq]
  exact congrArg (fun z : EReal => z + otherPart m c 0) (zero_e _)

theorem Ssucc_e0 (n : ℕ) (h : n + 1 < cfg0.N) :
    S m c (n + 1) h e0 = S m c n (Nat.lt_of_succ_lt h) e0 + ownPart m c (n + 1) := by
  rw [S_next, accStep_e0, pay1_at, p7_eq]
  exact congrArg (fun z : EReal => z + ownPart m c (n + 1)) (congrArg (S m c n (Nat.lt_of_succ_lt h)) r00_emb_u)
theorem Ssucc_e1 (n : ℕ) (h : n + 1 < cfg0.N) :
    S m c (n + 1) h e1 = S m c n (Nat.lt_of_succ_lt h) e1 + otherPart m c (n + 1) := by
  rw [S_next, accStep_e1, p6_eq]
  exact congrArg (fun z : EReal => z + otherPart m c (n + 1)) (congrArg (S m c n (Nat.lt_of_succ_lt h)) r01_emb_u)

/-- After point n the first entry is the sum of the own-class partial sums of points 0 … n, -/
theorem S_e0 : ∀ (n : ℕ) (h : n < cfg0.N), S m c n h e0 = ∑ k ∈ Finset.range (n + 1), ownPart m c k
  | 0, h => by rw [S0_e0, zero_add, Finset.sum_range_one]
  | n + 1, h => by rw [Ssucc_e0, S_e0 n, Finset.sum_range_succ _ (n + 1)]
/-- and the second entry the sum of their other-class partial sums. -/
theorem S_e1 : ∀ (n : ℕ) (h : n < cfg0.N), S m c n h e1 = ∑ k ∈ Finset.range (n + 1), otherPart m c k
  | 0, h => by rw [S0_e1, zero_add, Finset.sum_range_one]
  | n + 1, h => by rw [Ssucc_e1, S_e1 n, Finset.sum_range_succ _ (n + 1)]

/-! ## The eight points' rows are all the rows -/

/-- A sum over the 8192 rows is the sum over the 8 blocks of the sums over each block's 1024 rows. -/
theorem sum_rows {M : Type*} [AddCommMonoid M] (f : Fin 8192 → M) :
    ∑ b : Fin 8192, f b = ∑ t : Fin 8, ∑ r : Fin 1024, f (row t r) :=
  Cert.BlockSums.sum_blocks 8 1024 f

theorem ownParts_total : ∑ k ∈ Finset.range 8, ownPart m c k = ownTotal (argX m c) (argC m c) (argL m c) := by
  rw [Finset.sum_range]
  unfold ownTotal
  rw [sum_rows]
  refine Finset.sum_congr rfl fun t _ => ?_
  unfold ownPart
  rw [dif_pos t.isLt]

theorem otherParts_total : ∑ k ∈ Finset.range 8, otherPart m c k = otherTotal (argX m c) (argC m c) (argL m c) := by
  rw [Finset.sum_range]
  unfold otherTotal
  rw [sum_rows]
  refine Finset.sum_congr rfl fun t _ => ?_
  unfold otherPart
  rw [dif_pos t.isLt]

/-- After the last point the accumulator's two entries are the two totals. -/
theorem last_e0 (h : 7 < cfg0.N) : S m c 7 h e0 = ownTotal (argX m c) (argC m c) (argL m c) := by
  rw [S_e0]; exact ownParts_total m c
theorem last_e1 (h : 7 < cfg0.N) : S m c 7 h e1 = otherTotal (argX m c) (argC m c) (argL m c) := by
  rw [S_e1]; exact otherParts_total m c

end Cert.KernelIdeal.AccChain

end
-- ==== Proof.Final.lean ====
/-
  From the accumulator to the program's result.  The output window's one write-back, at the last grid point, writes
  the accumulator after that point, and its block is the whole [1, 2] result array; the host operations after the
  kernel take that array's two entries, divide each by its count, scale the second and subtract.
-/
import proofs.«165473_j89232240542211_1_alg».proof.Proof.Acc
import proofs.«165473_j89232240542211_1_alg».proof.Proof.Spec
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Cert.KernelIdeal.Pieces Cert.KernelIdeal.Acc
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The accumulator after the last point, as contents of the kernel's result array. -/
abbrev accLast (c : Dev nD) : Buf (Elt F) ((c : Thread nD τ).loc main_v7) :=
  S m c 7 (by rw [show cfg0.N = 8 from N_0]; decide)

/-- The one write-back, at point 7, writes it: block (0, 0) of the [1, 2] array read through zero offsets is the array. -/
theorem flushed_eq (c : Dev nD) (t : Fin cfg0.N) (hf : (cfg0.win 4).flush t = true) :
    (dats m 0 c).flushed 4 t = ((cfg0.win 4).blk t).view.read (Elt F) (accLast m c) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after0_4, out_last m c t0_7 rfl]
  have hz' : (fun a => win0_4.index t0_7 a * main_v7.ty.shape.size a) = fun _ => 0 := funext fun a => by fin_cases a <;> decide
  exact (Memref.read_access_unit_zero (Elt F) main_v7 hz' (fun a => by rw [congrFun hz' a]; simp) (accLast m c)).symm

/-- So the result array ends holding the accumulator after the last point: point 7's block covers it. -/
theorem final4 (c : Dev nD) : (dats m 0 c).arrAt 4 cfg0.N = accLast m c :=
  (dats m 0 c).arrAt_eq_of_cover 4 (accLast m c) (flushed_eq m c) fun i =>
    ⟨t0_7, (flush0_4 t0_7).mpr rfl, by
      show i ∈ ((View.whole main_v7).slice (win0_4.rect t0_7)).set
      rw [View.set_slice_whole, Rect.mem_set_unit]
      intro a
      have h0 : (i 0 : Nat) < 1 := (i 0).isLt
      have h1 : (i 1 : Nat) < 2 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 2 from by decide +kernel]; omega⟩

/-- The host operations after the kernel, as one function of the [1, 2] result array. -/
def tail (v : (⟨S1x2, .f32⟩ : BufTy).Contents (Elt F)) : (⟨S_, .f32⟩ : BufTy).Contents (Elt F) :=
  subf
    (Host.divf (F := F) (shapeCast S_ (extractStridedSlice S1x1 ![0, 0] v slices_S1x2_S1x1_0_0) shapeCasts_S1x1_S_)
      (constant (F := F) S_ .f32 0x46000000#32))
    (mulf (constant (F := F) S_ .f32 0x3A83126F#32)
      (Host.divf (F := F) (shapeCast S_ (extractStridedSlice S1x1 ![0, 1] v slices_S1x2_S1x1_0_1) shapeCasts_S1x1_S_)
        (constant (F := F) S_ .f32 0x4AF9C000#32)))

/-- The program's result buffer after the run: the tail of the accumulator after the last point. -/
theorem tail_eq (c : Dev nD) :
    Pipeline.afterTail₀ cfgs (dats m) 0 (V0 m) [hostOps1] c main_v15 = tail (accLast m c) := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v7)
      = accLast m c := (Pipeline.withArrays_arr spec0 launch0.win.arr_inj c _ _ 4).trans (final4 m c)
  rw [e]
  rfl

/-- The kernel program's run, read: its result buffer ends at the tail of the accumulator after the last point, and
    the three argument arrays end as launched. -/
theorem run : θ_run defs (onTc (τ := τ) (main (F := F))) ⟨m, fun _ => 0, ρ⟩ (fun r => ∀ c : Dev nD,
      r.2.mem ((c.tc : Thread nD τ).loc main_v15) = tail (accLast m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The tail at the ideal instance -/

section IdealTail
variable {α : Type}

/-- A [1, 1] array viewed as a scalar reads its one entry. -/
theorem cast11 (x : S1x1.Idx → α) (h : S1x1.ShapeCasts S_) (j : S_.Idx) : shapeCast S_ x h j = x u :=
  shapeCast_apply x h j u (by
    have n1 : S1x1.numel = 1 := by decide
    have n0 : S_.numel = 1 := by decide
    have h1 : (S1x1.rowMajor u).val < 1 := lt_of_lt_of_eq (S1x1.rowMajor u).isLt n1
    have h2 : (S_.rowMajor j).val < 1 := lt_of_lt_of_eq (S_.rowMajor j).isLt n0
    omega)

/-- The two one-entry slices of a [1, 2] array read its two entries. -/
theorem slice0 (v : S1x2.Idx → α) : extractStridedSlice S1x1 ![0, 0] v slices_S1x2_S1x1_0_0 u = v e0 :=
  extractStridedSlice_apply _ v _ u e0 (fun a => by match a with | ⟨0, _⟩ => rfl | ⟨1, _⟩ => rfl)
theorem slice1 (v : S1x2.Idx → α) : extractStridedSlice S1x1 ![0, 1] v slices_S1x2_S1x1_0_1 u = v e1 :=
  extractStridedSlice_apply _ v _ u e1 (fun a => by match a with | ⟨0, _⟩ => rfl | ⟨1, _⟩ => rfl)

end IdealTail

/-- Over the extended reals the tail is the loss of the array's two entries. -/
theorem tail_val (v : S1x2.Idx → EReal) (j : S_.Idx) :
    tail (F := Ideal) v j = CenterLoss.loss (v e0) (v e1) := by
  unfold tail CenterLoss.loss
  show FloatOps.subf
      (FloatOps.hostDivf (shapeCast S_ (extractStridedSlice (s := S1x2) S1x1 ![0, 0] v slices_S1x2_S1x1_0_0) shapeCasts_S1x1_S_ j)
        (FloatOps.ofBits (F := Ideal) .f32 0x46000000#32))
      (FloatOps.mulf (FloatOps.ofBits (F := Ideal) .f32 0x3A83126F#32)
        (FloatOps.hostDivf (shapeCast S_ (extractStridedSlice (s := S1x2) S1x1 ![0, 1] v slices_S1x2_S1x1_0_1) shapeCasts_S1x1_S_ j)
          (FloatOps.ofBits (F := Ideal) .f32 0x4AF9C000#32))) = _
  rw [cast11, cast11, slice0, slice1]
  rfl

end Cert.KernelIdeal.Final

end
-- ==== Proof.lean ====
/-
  The centre-loss kernel against its plain reference, over the extended reals.

  Both programs compute, for batch row b and class c, the squared distance ‖x_b‖² + ‖c_c‖² − 2·⟨x_b, c_c⟩ clamped
  between the same two bounds, keep it where c is (or is not) the row's labelled class, total the two families and
  combine the totals with the same three constants.  The reference totals each family in one sum over all (row, class)
  pairs.  The kernel walks eight blocks of 1024 rows: at each block it sums over the classes, then over the block's
  rows, and adds the two partial sums into a two-entry accumulator zeroed at the first block and copied out after the
  last.  A sum over 8192 rows is the sum over the eight blocks of the sums over each block's rows, and adding the
  blocks' sums one after another from zero gives their sum: these are commutativity and associativity of addition,
  which hold for all extended reals, so the inputs' finiteness is never used.

  The three frames: the two kernel programs' runs are read off their launch-and-body certificates; the reference is a
  straight line of host operations.  The idealization rewrote no operation, so there is nothing to preserve beyond
  the text itself.
-/
import proofs.«165473_j89232240542211_1_alg».proof.Defs
import proofs.«165473_j89232240542211_1_alg».proof.Proof.Gen.Kernel
import proofs.«165473_j89232240542211_1_alg».proof.Proof.Gen.Kernel.Skeleton
import proofs.«165473_j89232240542211_1_alg».proof.Proof.Gen.Kernel.Launch
import proofs.«165473_j89232240542211_1_alg».proof.Proof.Gen.Kernel.Points
import proofs.«165473_j89232240542211_1_alg».proof.Proof.Gen.Kernel.Frame
import proofs.«165473_j89232240542211_1_alg».proof.Proof.Gen.KernelIdeal
import proofs.«165473_j89232240542211_1_alg».proof.Proof.Gen.KernelIdeal.Skeleton
import proofs.«165473_j89232240542211_1_alg».proof.Proof.Gen.KernelIdeal.Launch
import proofs.«165473_j89232240542211_1_alg».proof.Proof.Gen.KernelIdeal.Points
import proofs.«165473_j89232240542211_1_alg».proof.Proof.Gen.KernelIdeal.Frame
import proofs.«165473_j89232240542211_1_alg».proof.Proof.Gen.ReferenceIdeal
import proofs.«165473_j89232240542211_1_alg».proof.Proof.Gen.Pre_finite_inputs
import proofs.«165473_j89232240542211_1_alg».proof.Proof.Gen.ReferenceIdeal.Run
import proofs.«165473_j89232240542211_1_alg».proof.Proof.Gen.ReferenceIdeal.Read
import proofs.«165473_j89232240542211_1_alg».proof.Proof.RefValue
import proofs.«165473_j89232240542211_1_alg».proof.Proof.AccChain
import proofs.«165473_j89232240542211_1_alg».proof.Proof.Final
import Idealize.ShloMosaic.Adequacy
import Idealize.ShloMosaic.Init

noncomputable section

namespace Cert.Proof

open Idealize.ShloMosaic Idealize.SL.Sem

/-- The word-level kernel program runs and leaves its arguments as launched. -/
theorem frame_k [Cert.Kernel.Facts] [Cert.Pre_finite_inputs.Facts] : Cert.frame_Kernel :=
  fun m ρ _ => Cert.Kernel.Gen.frame m ρ

/-- So does the idealized kernel program. -/
theorem frame_ki [Cert.KernelIdeal.Facts] [Cert.Pre_finite_inputs.Facts] : Cert.frame_KernelIdeal :=
  fun m ρ _ => Cert.KernelIdeal.Gen.frame m ρ

/-- The reference is a straight line of host operations: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The kernel's result is the tail of its accumulator after the last block, whose two entries are the two totals;
    the reference's result is the loss of the same two totals of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Final.tail (Cert.KernelIdeal.Final.accLast m c),
    Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2]
  funext j
  show _ = Cert.KernelIdeal.Final.tail (Cert.KernelIdeal.Final.accLast m c) j
  rw [Cert.KernelIdeal.Final.tail_val]
  exact (congrArg₂ CenterLoss.loss (Cert.KernelIdeal.AccChain.last_e0 m c _) (Cert.KernelIdeal.AccChain.last_e1 m c _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
